-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  main_v93

def fn_part4 {F : FTy → Type} [FloatOps F] (main_arg14 : FVec F S512x512 .f32) (main_arg15 : FVec F S512 .f32) (main_arg16 : FVec F S512 .f32) (main_arg17 : FVec F S512 .f32) (main_arg18 : FVec F S512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512x512 .f32) (main_arg12 : FVec F S512x512 .f32) (main_arg13 : FVec F S512x512 .f32) (main_arg14 : FVec F S512x512 .f32) (main_arg15 : FVec F S512 .f32) (main_arg16 : FVec F S512 .f32) (main_arg17 : FVec F S512 .f32) (main_arg18 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512x512 .f32) (main_arg13 : FVec F S512x512 .f32) (main_arg14 : FVec F S512x512 .f32) (main_arg15 : FVec F S512 .f32) (main_arg16 : FVec F S512 .f32) (main_arg17 : FVec F S512 .f32) (main_arg18 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512x512 .f32) (main_arg13 : FVec F S512x512 .f32) (main_arg14 : FVec F S512x512 .f32) (main_arg15 : FVec F S512 .f32) (main_arg16 : FVec F S512 .f32) (main_arg17 : FVec F S512 .f32) (main_arg18 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x512 .f32) (main_arg1 : FVec F S16384x512 .f32) (main_arg2 : FVec F S16384x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512x512 .f32) (main_arg13 : FVec F S512x512 .f32) (main_arg14 : FVec F S512x512 .f32) (main_arg15 : FVec F S512 .f32) (main_arg16 : FVec F S512 .f32) (main_arg17 : FVec F S512 .f32) (main_arg18 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x512 : Shape := ⟨2, ![16384, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1024x512 : Shape := ⟨2, ![1024, 512]⟩
abbrev S1x512 : Shape := ⟨2, ![1, 512]⟩

abbrev nBuf : Space → Nat
  | .hbm => 33
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S2048x512, .f32⟩
  | .hbm, ⟨20, _⟩ => ⟨S2048x512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S2048, .f32⟩
  | .hbm, ⟨26, _⟩ => ⟨S512x2048, .f32⟩
  | .hbm, ⟨27, _⟩ => ⟨S512x2048, .bf16⟩
  | .hbm, ⟨28, _⟩ => ⟨S512x2048, .f32⟩
  | .hbm, ⟨29, _⟩ => ⟨S512x2048, .bf16⟩
  | .hbm, ⟨30, _⟩ => ⟨S1x2048, .f32⟩
  | .hbm, ⟨31, _⟩ => ⟨S16384x512, .f32⟩
  | .hbm, ⟨32, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S512x512_S512x512_S512x512_S512x512_S2048x512_d0 : Shape.Concatenates [S512x512, S512x512, S512x512, S512x512] S2048x512 0
  concatenates_S512_S512_S512_S512_S2048_d0 : Shape.Concatenates [S512, S512, S512, S512] S2048 0
  transposes_S2048x512_S512x2048_1_0 : S2048x512.Transposes [1, 0] S512x2048
  bitsLt_bf16_f32 : FTy.bits .bf16 < FTy.bits .f32
  shapeCasts_S2048_S1x2048 : S2048.ShapeCasts S1x2048
  inb_S1024x512_S1024x512_0_0 : ∀ a, (![0, 0] : Fin 2 → Nat) a + S1024x512.size a ≤ S1024x512.size a
  h_S1024x512 : 0 < S1024x512.numel
  inb_S512x2048_S512x512_0_0 : ∀ a, (![0, 0] : Fin 2 → Nat) a + S512x512.size a ≤ S512x2048.size a
  h_S512x512 : 0 < S512x512.numel
  shapeCasts_S512x512_S512x512 : S512x512.ShapeCasts S512x512
  inb_S1x2048_S1x512_0_0 : ∀ a, (![0, 0] : Fin 2 → Nat) a + S1x512.size a ≤ S1x2048.size a
  h_S1x512 : 0 < S1x512.numel
  shapeCasts_S1x512_S1x512 : S1x512.ShapeCasts S1x512
  broadcasts_S1x512_S1024x512 : S1x512.Broadcasts S1024x512
  inb_S512x2048_S512x512_0_512 : ∀ a, (![0, 512] : Fin 2 → Nat) a + S512x512.size a ≤ S512x2048.size a
  inb_S1x2048_S1x512_0_512 : ∀ a, (![0, 512] : Fin 2 → Nat) a + S1x512.size a ≤ S1x2048.size a
  inb_S512x2048_S512x512_0_1024 : ∀ a, (![0, 1024] : Fin 2 → Nat) a + S512x512.size a ≤ S512x2048.size a
  inb_S1x2048_S1x512_0_1024 : ∀ a, (![0, 1024] : Fin 2 → Nat) a + S1x512.size a ≤ S1x2048.size a
  inb_S512x2048_S512x512_0_1536 : ∀ a, (![0, 1536] : Fin 2 → Nat) a + S512x512.size a ≤ S512x2048.size a
  inb_S1x2048_S1x512_0_1536 : ∀ a, (![0, 1536] : Fin 2 → Nat) a + S1x512.size a ≤ S1x2048.size a
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .f32 = 32 ∨ (Rect.block (s := S16384x512) S1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .f32 = 32 ∨ (Rect.block (s := S16384x512) S1024x512.size (cc0_transform_7 i) (hinb0_7 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S16384x2048 : Shape := ⟨2, ![16384, 2048]⟩
abbrev S1x2048 : Shape := ⟨2, ![1, 2048]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S2048x512, .f32⟩
  | .hbm, ⟨20, _⟩ => ⟨S2048x512, .f32⟩
  | .hbm, ⟨21, _⟩ => ⟨S2048, .f32⟩
  | .hbm, ⟨22, _⟩ => ⟨S2048, .f32⟩
  | .hbm, ⟨23, _⟩ => ⟨S512x2048, .f32⟩
  | .hbm, ⟨24, _⟩ => ⟨S16384x2048, .f32⟩
  | .hbm, ⟨25, _⟩ => ⟨S512x2048, .f32⟩
  | .hbm, ⟨26, _⟩ => ⟨S16384x2048, .f32⟩
  | .hbm, ⟨27, _⟩ => ⟨S16384x2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S_, .f32⟩
  | .hbm, ⟨58, _⟩ => ⟨S16384x512, .f32⟩
  | .hbm, ⟨59, _⟩ => ⟨S16384x512, .f32⟩
  | .hbm, ⟨60, _⟩ => ⟨S_, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S512x512_S512x512_S512x512_S512x512_S2048x512_d0 : Shape.Concatenates [S512x512, S512x512, S512x512, S512x512] S2048x512 0
  concatenates_S512_S512_S512_S512_S2048_d0 : Shape.Concatenates [S512, S512, S512, S512] S2048 0
  transposes_S2048x512_S512x2048_1_0 : S2048x512.Transposes [1, 0] S512x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.CellFrameBits.lean ====
/-
  The frame of the LSTM-cell program in namespace Cert.Kernel: @main concatenates the four input-projection matrices, the four
  recurrent matrices and the four summed bias pairs, transposes the two stacked matrices, and then runs ONE region over
  16 row blocks of 1024 rows. At each block the body reads the rows of u, h and c, reads the two resident 512 x 2048
  matrices and the 1 x 2048 bias row through four column quarters, and stores the whole 1024 x 512 block of each result.
  Stated here, for any float instance: what the region finds in every buffer (the host prefix folded over the launch
  memory), that no argument array is written by the prefix, what each result block holds after the body (the stored
  payload over the blocks read), the body's triple, and from these the run of @main and the frame: every execution
  ends, faults nowhere, and leaves the nineteen argument arrays as they were.
-/
import proofs.«143322_j6150393167883_2_alg».proof.Proof.Gen.Kernel.Launch
import proofs.«143322_j6150393167883_2_alg».proof.Proof.Gen.Kernel.Skeleton
import proofs.«143322_j6150393167883_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the twelve host operations (three
    concatenations of four, four bias sums, two transposes, two format changes, one reshape). -/
abbrev V (c : Dev nD) (b : Ref sig .tc) : Buf (Elt F) ((c : Thread nD τ).loc b) :=
  StableHlo.after hostOps0 (fun b => m (c, b)) b

/-- None of the twelve host operations allocates. -/
theorem hostOps0_fresh : (hostOps0 : List (HloOp τ sig (Elt F))).Forall fun op => op.fresh = ∅ := by
  simp only [List.Forall]; repeat' constructor

/-- @main is its host operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, fetched there or not: the three row windows
    are fetched at every point, and the three resident windows (the two matrices, the bias row) keep the one block
    their constant index names. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame's post from a run to the region's post -/

/-- The three row arrays are inputs of the region and end as the region found them; the sixteen weight and bias
    arrays are staged by no window and are among the buffers the region leaves alone; the host prefix writes none
    of the nineteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses -/

/-- A whole 1024 x 512 block. -/
abbrev rT : Rect S1024x512 := Rect.unit (s := S1024x512) ![0, 0] S1024x512.size inb_S1024x512_S1024x512_0_0
/-- Column quarter `q` (columns 512 q … 512 q + 511) of a resident 512 x 2048 matrix. -/
abbrev rW0 : Rect S512x2048 := Rect.unit (s := S512x2048) ![0, 0] S512x512.size inb_S512x2048_S512x512_0_0
abbrev rW1 : Rect S512x2048 := Rect.unit (s := S512x2048) ![0, 512] S512x512.size inb_S512x2048_S512x512_0_512
abbrev rW2 : Rect S512x2048 := Rect.unit (s := S512x2048) ![0, 1024] S512x512.size inb_S512x2048_S512x512_0_1024
abbrev rW3 : Rect S512x2048 := Rect.unit (s := S512x2048) ![0, 1536] S512x512.size inb_S512x2048_S512x512_0_1536
/-- Column quarter `q` of the 1 x 2048 bias row. -/
abbrev rB0 : Rect S1x2048 := Rect.unit (s := S1x2048) ![0, 0] S1x512.size inb_S1x2048_S1x512_0_0
abbrev rB1 : Rect S1x2048 := Rect.unit (s := S1x2048) ![0, 512] S1x512.size inb_S1x2048_S1x512_0_512
abbrev rB2 : Rect S1x2048 := Rect.unit (s := S1x2048) ![0, 1024] S1x512.size inb_S1x2048_S1x512_0_1024
abbrev rB3 : Rect S1x2048 := Rect.unit (s := S1x2048) ![0, 1536] S1x512.size inb_S1x2048_S1x512_0_1536

/-! ## What the body leaves in each result window's buffer -/

/-- The new cell state of a row block: forget gate times old cell plus input gate times candidate, the gates over
    quarters 0, 1, 2 of the two matrices and the bias row. -/
def cellPay (x0 x1 x2 : Vec F S1024x512 .f32) (x3 x4 : Vec F S512x2048 .bf16) (x5 : Vec F S1x2048 .f32) : Vec F S1024x512 .f32 :=
  k0_pay1 (k0_pay3 (View.ld x0 rT)) (k0_pay4 (View.ld x1 rT))
    (k0_pay5 (View.ld x0 rT) (View.ld x1 rT) (View.ld x3 rW0) (View.ld x4 rW0) (View.ld x5 rB0))
    (k0_pay6 (View.ld x0 rT) (View.ld x1 rT) (View.ld x3 rW1) (View.ld x4 rW1) (View.ld x5 rB1))
    (k0_pay7 (View.ld x3 rW2)) (k0_pay8 (View.ld x4 rW2)) (View.ld x5 rB2) (View.ld x2 rT)

/-- The new hidden state of a row block: output gate (quarter 3) times tanh of the new cell state. -/
def hidPay (x0 x1 x2 : Vec F S1024x512 .f32) (x3 x4 : Vec F S512x2048 .bf16) (x5 : Vec F S1x2048 .f32) : Vec F S1024x512 .f32 :=
  k0_pay2 (k0_pay3 (View.ld x0 rT)) (k0_pay4 (View.ld x1 rT))
    (k0_pay5 (View.ld x0 rT) (View.ld x1 rT) (View.ld x3 rW0) (View.ld x4 rW0) (View.ld x5 rB0))
    (k0_pay6 (View.ld x0 rT) (View.ld x1 rT) (View.ld x3 rW1) (View.ld x4 rW1) (View.ld x5 rB1))
    (k0_pay7 (View.ld x3 rW2)) (k0_pay8 (View.ld x4 rW2)) (View.ld x5 rB2) (View.ld x2 rT)
    (View.ld x3 rW3) (View.ld x4 rW3) (View.ld x5 rB3)

/-- Window 6's buffer (the hidden state's block) after the body: its one store, of the whole block. -/
def out0_6 (x0 x1 x2 : Vec F S1024x512 .f32) (x3 x4 : Vec F S512x2048 .bf16) (x5 : Vec F S1x2048 .f32) : Vec F S1024x512 .f32 :=
  View.canon [⟨rT, hidPay x0 x1 x2 x3 x4 x5⟩]
/-- Window 7's buffer (the cell state's block) after the body: its one store, of the whole block. -/
def out0_7 (x0 x1 x2 : Vec F S1024x512 .f32) (x3 x4 : Vec F S512x2048 .bf16) (x5 : Vec F S1x2048 .f32) : Vec F S1024x512 .f32 :=
  View.canon [⟨rT, cellPay x0 x1 x2 x3 x4 x5⟩]

/-- One store of the whole block covers the block. -/
theorem coverT (p0 : Vec F S1024x512 .f32) (y : S1024x512.Idx) :
    ∃ pc ∈ ([⟨rT, p0⟩] : List (View.Piece (Elt F) S1024x512 .f32)), y ∈ pc.1.set :=
  View.cover_of_tiled [⟨rT, p0⟩] S1024x512.size (by rfl) y

/-! ## The body's triple -/

set_option maxHeartbeats 4000000 in
/-- The body on whole staging memrefs, the six inputs' at contents `x0 … x5` and the two results' at anything, runs
    to the continuation holding the inputs' as they were and the results' at `out0_6`, `out0_7` of the inputs. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S512x2048 .bf16) (harg4 : arg4.IsWhole)
    (arg5 : Memref sig .tc .vmem S512x2048 .bf16) (harg5 : arg5.IsWhole) (arg6 : Memref sig .tc .vmem S1x2048 .f32) (harg6 : arg6.IsWhole)
    (arg7 : Memref sig .tc .vmem S1024x512 .f32) (harg7 : arg7.IsWhole) (arg8 : Memref sig .tc .vmem S1024x512 .f32) (harg8 : arg8.IsWhole)
    (x0 x1 x2 : Vec F S1024x512 .f32) (x3 x4 : Vec F S512x2048 .bf16) (x5 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverT _)
  iexists _; isplitr
  swap; · iexact H7
  ipureintro
  try dsimp only
  exact View.read_writes_eq_canon _ _ _ (coverT _)

/-! ## The pipeline's proof data -/

/-- The proof data of the pipeline on core `c`: the arrays as the region finds them; after the body at point `t`
    each input's buffer at its block and each result's at its stored payload over the input blocks; nothing owed,
    full shares, the invariant the untouched rest. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data computes and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance: the nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Cell

end
-- ==== Proof.CellFrameIdeal.lean ====
/-
  The frame of the LSTM-cell program in namespace Cert.KernelIdeal: @main concatenates the four input-projection matrices, the four
  recurrent matrices and the four summed bias pairs, transposes the two stacked matrices, and then runs ONE region over
  16 row blocks of 1024 rows. At each block the body reads the rows of u, h and c, reads the two resident 512 x 2048
  matrices and the 1 x 2048 bias row through four column quarters, and stores the whole 1024 x 512 block of each result.
  Stated here, for any float instance: what the region finds in every buffer (the host prefix folded over the launch
  memory), that no argument array is written by the prefix, what each result block holds after the body (the stored
  payload over the blocks read), the body's triple, and from these the run of @main and the frame: every execution
  ends, faults nowhere, and leaves the nineteen argument arrays as they were.
-/
import proofs.«143322_j6150393167883_2_alg».proof.Proof.Gen.KernelIdeal.Launch
import proofs.«143322_j6150393167883_2_alg».proof.Proof.Gen.KernelIdeal.Skeleton
import proofs.«143322_j6150393167883_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the twelve host operations (three
    concatenations of four, four bias sums, two transposes, two format changes, one reshape). -/
abbrev V (c : Dev nD) (b : Ref sig .tc) : Buf (Elt F) ((c : Thread nD τ).loc b) :=
  StableHlo.after hostOps0 (fun b => m (c, b)) b

/-- None of the twelve host operations allocates. -/
theorem hostOps0_fresh : (hostOps0 : List (HloOp τ sig (Elt F))).Forall fun op => op.fresh = ∅ := by
  simp only [List.Forall]; repeat' constructor

/-- @main is its host operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, fetched there or not: the three row windows
    are fetched at every point, and the three resident windows (the two matrices, the bias row) keep the one block
    their constant index names. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame's post from a run to the region's post -/

/-- The three row arrays are inputs of the region and end as the region found them; the sixteen weight and bias
    arrays are staged by no window and are among the buffers the region leaves alone; the host prefix writes none
    of the nineteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses -/

/-- A whole 1024 x 512 block. -/
abbrev rT : Rect S1024x512 := Rect.unit (s := S1024x512) ![0, 0] S1024x512.size inb_S1024x512_S1024x512_0_0
/-- Column quarter `q` (columns 512 q … 512 q + 511) of a resident 512 x 2048 matrix. -/
abbrev rW0 : Rect S512x2048 := Rect.unit (s := S512x2048) ![0, 0] S512x512.size inb_S512x2048_S512x512_0_0
abbrev rW1 : Rect S512x2048 := Rect.unit (s := S512x2048) ![0, 512] S512x512.size inb_S512x2048_S512x512_0_512
abbrev rW2 : Rect S512x2048 := Rect.unit (s := S512x2048) ![0, 1024] S512x512.size inb_S512x2048_S512x512_0_1024
abbrev rW3 : Rect S512x2048 := Rect.unit (s := S512x2048) ![0, 1536] S512x512.size inb_S512x2048_S512x512_0_1536
/-- Column quarter `q` of the 1 x 2048 bias row. -/
abbrev rB0 : Rect S1x2048 := Rect.unit (s := S1x2048) ![0, 0] S1x512.size inb_S1x2048_S1x512_0_0
abbrev rB1 : Rect S1x2048 := Rect.unit (s := S1x2048) ![0, 512] S1x512.size inb_S1x2048_S1x512_0_512
abbrev rB2 : Rect S1x2048 := Rect.unit (s := S1x2048) ![0, 1024] S1x512.size inb_S1x2048_S1x512_0_1024
abbrev rB3 : Rect S1x2048 := Rect.unit (s := S1x2048) ![0, 1536] S1x512.size inb_S1x2048_S1x512_0_1536

/-! ## What the body leaves in each result window's buffer -/

/-- The new cell state of a row block: forget gate times old cell plus input gate times candidate, the gates over
    quarters 0, 1, 2 of the two matrices and the bias row. -/
def cellPay (x0 x1 x2 : Vec F S1024x512 .f32) (x3 x4 : Vec F S512x2048 .bf16) (x5 : Vec F S1x2048 .f32) : Vec F S1024x512 .f32 :=
  k0_pay1 (k0_pay3 (View.ld x0 rT)) (k0_pay4 (View.ld x1 rT))
    (k0_pay5 (View.ld x0 rT) (View.ld x1 rT) (View.ld x3 rW0) (View.ld x4 rW0) (View.ld x5 rB0))
    (k0_pay6 (View.ld x0 rT) (View.ld x1 rT) (View.ld x3 rW1) (View.ld x4 rW1) (View.ld x5 rB1))
    (k0_pay7 (View.ld x3 rW2)) (k0_pay8 (View.ld x4 rW2)) (View.ld x5 rB2) (View.ld x2 rT)

/-- The new hidden state of a row block: output gate (quarter 3) times tanh of the new cell state. -/
def hidPay (x0 x1 x2 : Vec F S1024x512 .f32) (x3 x4 : Vec F S512x2048 .bf16) (x5 : Vec F S1x2048 .f32) : Vec F S1024x512 .f32 :=
  k0_pay2 (k0_pay3 (View.ld x0 rT)) (k0_pay4 (View.ld x1 rT))
    (k0_pay5 (View.ld x0 rT) (View.ld x1 rT) (View.ld x3 rW0) (View.ld x4 rW0) (View.ld x5 rB0))
    (k0_pay6 (View.ld x0 rT) (View.ld x1 rT) (View.ld x3 rW1) (View.ld x4 rW1) (View.ld x5 rB1))
    (k0_pay7 (View.ld x3 rW2)) (k0_pay8 (View.ld x4 rW2)) (View.ld x5 rB2) (View.ld x2 rT)
    (View.ld x3 rW3) (View.ld x4 rW3) (View.ld x5 rB3)

/-- Window 6's buffer (the hidden state's block) after the body: its one store, of the whole block. -/
def out0_6 (x0 x1 x2 : Vec F S1024x512 .f32) (x3 x4 : Vec F S512x2048 .bf16) (x5 : Vec F S1x2048 .f32) : Vec F S1024x512 .f32 :=
  View.canon [⟨rT, hidPay x0 x1 x2 x3 x4 x5⟩]
/-- Window 7's buffer (the cell state's block) after the body: its one store, of the whole block. -/
def out0_7 (x0 x1 x2 : Vec F S1024x512 .f32) (x3 x4 : Vec F S512x2048 .bf16) (x5 : Vec F S1x2048 .f32) : Vec F S1024x512 .f32 :=
  View.canon [⟨rT, cellPay x0 x1 x2 x3 x4 x5⟩]

/-- One store of the whole block covers the block. -/
theorem coverT (p0 : Vec F S1024x512 .f32) (y : S1024x512.Idx) :
    ∃ pc ∈ ([⟨rT, p0⟩] : List (View.Piece (Elt F) S1024x512 .f32)), y ∈ pc.1.set :=
  View.cover_of_tiled [⟨rT, p0⟩] S1024x512.size (by rfl) y

/-! ## The body's triple -/

set_option maxHeartbeats 4000000 in
/-- The body on whole staging memrefs, the six inputs' at contents `x0 … x5` and the two results' at anything, runs
    to the continuation holding the inputs' as they were and the results' at `out0_6`, `out0_7` of the inputs. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S512x2048 .bf16) (harg4 : arg4.IsWhole)
    (arg5 : Memref sig .tc .vmem S512x2048 .bf16) (harg5 : arg5.IsWhole) (arg6 : Memref sig .tc .vmem S1x2048 .f32) (harg6 : arg6.IsWhole)
    (arg7 : Memref sig .tc .vmem S1024x512 .f32) (harg7 : arg7.IsWhole) (arg8 : Memref sig .tc .vmem S1024x512 .f32) (harg8 : arg8.IsWhole)
    (x0 x1 x2 : Vec F S1024x512 .f32) (x3 x4 : Vec F S512x2048 .bf16) (x5 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverT _)
  iexists _; isplitr
  swap; · iexact H7
  ipureintro
  try dsimp only
  exact View.read_writes_eq_canon _ _ _ (coverT _)

/-! ## The pipeline's proof data -/

/-- The proof data of the pipeline on core `c`: the arrays as the region finds them; after the body at point `t`
    each input's buffer at its block and each result's at its stored payload over the input blocks; nothing owed,
    full shares, the invariant the untouched rest. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data computes and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance: the nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Cell

end
-- ==== Proof.CellSpec.lean ====
/-
  The LSTM cell as one function of its arrays, index by index, on the extended reals.

  With u, h the input and hidden rows, c the cell rows, Wt and Ut the two stacked matrices already transposed
  (512 x 2048: column 512 q + j is row j of the q-th of the four gate matrices) and b a bias per stacked column,
  the pre-activation at row r and stacked column cc is
      pre r cc = (sum_k u[r,k] Wt[k,cc] + sum_k h[r,k] Ut[k,cc]) + b[cc],
  the gates are i = logistic (pre r j), f = logistic (pre r (512 + j)), g = tanh (pre r (1024 + j)),
  o = logistic (pre r (1536 + j)), the new cell state is f c[r,j] + i g and the new hidden state o tanh of it.

  The number of rows is a parameter: a block of 1024 rows and the whole 16384-row array are the same formula,
  and a row of a block computes what that row of the array computes (pre_congr, cellAt_congr, hidAt_congr).
-/
import Idealize.ShloMosaic.PureOps.Ideal
import Idealize.ShloMosaic.Lib.ValueIdx

noncomputable section

namespace Cert.CellSpec

open Idealize.ShloMosaic Idealize.ShloMosaic.ValueIdx

/-- Stacked column `off + j`: column j of the gate whose quarter starts at `off`. -/
abbrev col (off : Nat) (hoff : off + 512 ≤ 2048) (j : Fin 512) : Fin 2048 := ⟨off + j.val, by have := j.isLt; omega⟩

variable {R : Nat}

/-- The pre-activation at row `r` and stacked column `cc`. -/
def pre (u h : (⟨2, ![R, 512]⟩ : Shape).Idx → EReal) (Wt Ut : (⟨2, ![512, 2048]⟩ : Shape).Idx → EReal) (b : Fin 2048 → EReal)
    (r : Fin R) (cc : Fin 2048) : EReal :=
  ((∑ k : Fin 512, u (ix2 r k) * Wt (ix2 k cc)) + ∑ k : Fin 512, h (ix2 r k) * Ut (ix2 k cc)) + b cc

/-- The new cell state at row `r`, column `j`: forget gate times old cell plus input gate times candidate. -/
def cellAt (u h c : (⟨2, ![R, 512]⟩ : Shape).Idx → EReal) (Wt Ut : (⟨2, ![512, 2048]⟩ : Shape).Idx → EReal) (b : Fin 2048 → EReal)
    (r : Fin R) (j : Fin 512) : EReal :=
  Ideal.logistic (pre u h Wt Ut b r (col 512 (by omega) j)) * c (ix2 r j)
    + Ideal.logistic (pre u h Wt Ut b r (col 0 (by omega) j)) * Ideal.tanh (pre u h Wt Ut b r (col 1024 (by omega) j))

/-- The new hidden state at row `r`, column `j`: output gate times tanh of the new cell state. -/
def hidAt (u h c : (⟨2, ![R, 512]⟩ : Shape).Idx → EReal) (Wt Ut : (⟨2, ![512, 2048]⟩ : Shape).Idx → EReal) (b : Fin 2048 → EReal)
    (r : Fin R) (j : Fin 512) : EReal :=
  Ideal.logistic (pre u h Wt Ut b r (col 1536 (by omega) j)) * Ideal.tanh (cellAt u h c Wt Ut b r j)

variable {R' : Nat}

/-- The pre-activation of a row depends on that row of u and of h only. -/
theorem pre_congr (u h : (⟨2, ![R, 512]⟩ : Shape).Idx → EReal) (u' h' : (⟨2, ![R', 512]⟩ : Shape).Idx → EReal)
    (Wt Ut : (⟨2, ![512, 2048]⟩ : Shape).Idx → EReal) (b : Fin 2048 → EReal) (r : Fin R) (r' : Fin R')
    (hu : ∀ k : Fin 512, u' (ix2 r' k) = u (ix2 r k)) (hh : ∀ k : Fin 512, h' (ix2 r' k) = h (ix2 r k)) (cc : Fin 2048) :
    pre u' h' Wt Ut b r' cc = pre u h Wt Ut b r cc := by
  unfold pre
  simp only [hu, hh]

/-- So does the new cell state, which reads also that row of c. -/
theorem cellAt_congr (u h c : (⟨2, ![R, 512]⟩ : Shape).Idx → EReal) (u' h' c' : (⟨2, ![R', 512]⟩ : Shape).Idx → EReal)
    (Wt Ut : (⟨2, ![512, 2048]⟩ : Shape).Idx → EReal) (b : Fin 2048 → EReal) (r : Fin R) (r' : Fin R')
    (hu : ∀ k : Fin 512, u' (ix2 r' k) = u (ix2 r k)) (hh : ∀ k : Fin 512, h' (ix2 r' k) = h (ix2 r k))
    (hc : ∀ k : Fin 512, c' (ix2 r' k) = c (ix2 r k)) (j : Fin 512) :
    cellAt u' h' c' Wt Ut b r' j = cellAt u h c Wt Ut b r j := by
  unfold cellAt
  rw [pre_congr u h u' h' Wt Ut b r r' hu hh, pre_congr u h u' h' Wt Ut b r r' hu hh, pre_congr u h u' h' Wt Ut b r r' hu hh, hc j]

/-- And the new hidden state. -/
theorem hidAt_congr (u h c : (⟨2, ![R, 512]⟩ : Shape).Idx → EReal) (u' h' c' : (⟨2, ![R', 512]⟩ : Shape).Idx → EReal)
    (Wt Ut : (⟨2, ![512, 2048]⟩ : Shape).Idx → EReal) (b : Fin 2048 → EReal) (r : Fin R) (r' : Fin R')
    (hu : ∀ k : Fin 512, u' (ix2 r' k) = u (ix2 r k)) (hh : ∀ k : Fin 512, h' (ix2 r' k) = h (ix2 r k))
    (hc : ∀ k : Fin 512, c' (ix2 r' k) = c (ix2 r k)) (j : Fin 512) :
    hidAt u' h' c' Wt Ut b r' j = hidAt u h c Wt Ut b r j := by
  unfold hidAt
  rw [pre_congr u h u' h' Wt Ut b r r' hu hh, cellAt_congr u h c u' h' c' Wt Ut b r r' hu hh hc]

/-- A bias added in two steps is the sum of the two biases added once: addition of extended reals is associative. -/
theorem pre_two_biases (u h : (⟨2, ![R, 512]⟩ : Shape).Idx → EReal) (Wt Ut : (⟨2, ![512, 2048]⟩ : Shape).Idx → EReal)
    (b₁ b₂ : Fin 2048 → EReal) (r : Fin R) (cc : Fin 2048) :
    (((∑ k : Fin 512, u (ix2 r k) * Wt (ix2 k cc)) + ∑ k : Fin 512, h (ix2 r k) * Ut (ix2 k cc)) + b₁ cc) + b₂ cc
      = pre u h Wt Ut (fun x => b₁ x + b₂ x) r cc := by
  unfold pre
  rw [add_assoc]

end Cert.CellSpec

end
-- ==== Proof.CellBlock.lean ====
/-
  The body's two stored payloads read at an index of the 1024 x 512 block, on the extended reals.

  A quarter matrix product into a zero accumulator is, at row p and column j, the sum over k of the left operand
  at (p, k) times the right at (k, j); a load through column quarter q of a resident matrix reads the matrix at
  column 512 q + j, and of the bias row likewise; the bias quarter broadcast over the rows reads its one row; the
  format change to the matrix unit's operand format is the identity on extended reals. So the stored cell state at
  (p, j) is the cell formula of the block's rows (CellSpec.cellAt) and the stored hidden state the hidden formula
  (CellSpec.hidAt), over the loaded blocks.
-/
import proofs.«143322_j6150393167883_2_alg».proof.Proof.CellFrameIdeal
import proofs.«143322_j6150393167883_2_alg».proof.Proof.CellSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CellValue

open Cert.KernelIdeal Cert.KernelIdeal.Gen Cert.KernelIdeal.Cell Cert.CellSpec
open Idealize.ShloMosaic Idealize.ShloMosaic.TcCoe Idealize.ShloMosaic.ValueIdx Idealize.SL.Sem

/-! ## A quarter matrix product at an index -/

theorem mmL0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem mmL1 (i : S1024x512.Idx) (q : dot_S1024x512_S512x512_S1024x512_1_0_0_1_n_n.contr.Idx) : (dot_S1024x512_S512x512_S1024x512_1_0_0_1_n_n.lhsIdx i q 1).val = (q ⟨0, by decide⟩).val :=
  dot_S1024x512_S512x512_S1024x512_1_0_0_1_n_n.lhsIdx_val_of_single rfl i q
theorem mmR0 (i : S1024x512.Idx) (q : dot_S1024x512_S512x512_S1024x512_1_0_0_1_n_n.contr.Idx) : (dot_S1024x512_S512x512_S1024x512_1_0_0_1_n_n.rhsIdx i q 0).val = (q ⟨0, by decide⟩).val :=
  dot_S1024x512_S512x512_S1024x512_1_0_0_1_n_n.rhsIdx_val_of_single rfl i q
theorem mmR1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The 1024 x 512 by 512 x 512 product into the zero accumulator, at (p, j): the sum over the 512 contracted
    positions. -/
theorem mm_apply (l : FVec Ideal S1024x512 .bf16) (r : FVec Ideal S512x512 .bf16) (p : Fin 1024) (j : Fin 512) :
    matmul dot_S1024x512_S512x512_S1024x512_1_0_0_1_n_n none l r (constant (F := Ideal) S1024x512 .f32 0x00000000#32) (ix2 p j)
      = ∑ k : Fin 512, l (ix2 p k) * r (ix2 k j) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p j) ((ValueIdx.contrEquiv1 dot_S1024x512_S512x512_S1024x512_1_0_0_1_n_n 512 rfl rfl).symm k) = ix2 p k := funext fun a => Fin.ext (by
    match a with
    | ⟨0, _⟩ => exact mmL0 _ _
    | ⟨1, _⟩ => exact (mmL1 _ _).trans hk)
  have er : dot_S1024x512_S512x512_S1024x512_1_0_0_1_n_n.rhsIdx (ix2 p j) ((ValueIdx.contrEquiv1 dot_S1024x512_S512x512_S1024x512_1_0_0_1_n_n 512 rfl rfl).symm k) = ix2 k j := funext fun a => Fin.ext (by
    match a with
    | ⟨0, _⟩ => exact (mmR0 _ _).trans hk
    | ⟨1, _⟩ => exact mmR1 _ _)
  rw [el, er]

/-! ## The loads through column quarters -/

theorem hz : (![0, 0] : Fin 2 → Nat) = fun _ => 0 := funext fun a => by fin_cases a <;> rfl

/-- A load of a resident matrix through the quarter starting at column `off` reads, at (k, j), the matrix at (k, off + j). -/
theorem ldW_apply (off : Nat) (hoff : off + 512 ≤ 2048) (inb : ∀ a, (![0, off] : Fin 2 → Nat) a + S512x512.size a ≤ S512x2048.size a)
    (x : Vec Ideal S512x2048 .bf16) (k j : Fin 512) :
    View.ld x (Rect.unit (s := S512x2048) ![0, off] S512x512.size inb) (ix2 k j) = x (ix2 k (col off hoff j)) := by
  show x ((Rect.unit (s := S512x2048) ![0, off] S512x512.size inb).emb (ix2 k j)) = _
  refine congrArg x (funext fun a => Fin.ext ?_)
  match a with
  | ⟨0, _⟩ => show 0 + 1 * k.val = k.val; omega
  | ⟨1, _⟩ => show off + 1 * j.val = off + j.val; omega

/-- A load of the bias row through the quarter starting at column `off` reads, at (0, j), the row at (0, off + j). -/
theorem ldB_apply (off : Nat) (hoff : off + 512 ≤ 2048) (inb : ∀ a, (![0, off] : Fin 2 → Nat) a + S1x512.size a ≤ S1x2048.size a)
    (x : Vec Ideal S1x2048 .f32) (j : Fin 512) :
    View.ld x (Rect.unit (s := S1x2048) ![0, off] S1x512.size inb) (ix2 (0 : Fin 1) j) = x (ix2 (0 : Fin 1) (col off hoff j)) := by
  show x ((Rect.unit (s := S1x2048) ![0, off] S1x512.size inb).emb (ix2 (0 : Fin 1) j)) = _
  refine congrArg x (funext fun a => Fin.ext ?_)
  match a with
  | ⟨0, _⟩ => show 0 + 1 * 0 = 0; omega
  | ⟨1, _⟩ => show off + 1 * j.val = off + j.val; omega

/-! ## A gate's pre-activation at an index -/

/-- Two quarter products summed, plus the bias quarter broadcast over the rows, at (p, j). -/
theorem gateSum_apply (l1 l2 : FVec Ideal S1024x512 .bf16) (r1 r2 : FVec Ideal S512x512 .bf16) (bb : FVec Ideal S1x512 .f32)
    (p : Fin 1024) (j : Fin 512) :
    addf (addf (matmul dot_S1024x512_S512x512_S1024x512_1_0_0_1_n_n none l1 r1 (constant (F := Ideal) S1024x512 .f32 0x00000000#32)) (matmul dot_S1024x512_S512x512_S1024x512_1_0_0_1_n_n none l2 r2 (constant (F := Ideal) S1024x512 .f32 0x00000000#32)))
        (broadcastTo S1024x512 bb broadcasts_S1x512_S1024x512) (ix2 p j)
      = ((∑ k : Fin 512, l1 (ix2 p k) * r1 (ix2 k j)) + ∑ k : Fin 512, l2 (ix2 p k) * r2 (ix2 k j)) + bb (ix2 (0 : Fin 1) j) := by
  rw [addf_apply, addf_apply, mm_apply, mm_apply, broadcastTo_1b_ab_apply]

/-- The input gate of a block (quarter operands already loaded), at (p, j). -/
theorem pay5_apply (v0 v2 : Vec Ideal S1024x512 .f32) (v4 v6 : Vec Ideal S512x512 .bf16) (v8 : Vec Ideal S1x512 .f32) (p : Fin 1024) (j : Fin 512) :
    k0_pay5 v0 v2 v4 v6 v8 (ix2 p j)
      = Ideal.logistic (((∑ k : Fin 512, v0 (ix2 p k) * v4 (ix2 k j)) + ∑ k : Fin 512, v2 (ix2 p k) * v6 (ix2 k j)) + v8 (ix2 (0 : Fin 1) j)) := by
  unfold k0_pay5
  refine (congrArg Ideal.logistic (gateSum_apply _ _ _ _ _ p j)).trans ?_
  rw [shapeCast_self, shapeCast_self, shapeCast_self]
  rfl

/-- The forget gate of a block, at (p, j). -/
theorem pay6_apply (v0 v2 : Vec Ideal S1024x512 .f32) (v16 v18 : Vec Ideal S512x512 .bf16) (v20 : Vec Ideal S1x512 .f32) (p : Fin 1024) (j : Fin 512) :
    k0_pay6 v0 v2 v16 v18 v20 (ix2 p j)
      = Ideal.logistic (((∑ k : Fin 512, v0 (ix2 p k) * v16 (ix2 k j)) + ∑ k : Fin 512, v2 (ix2 p k) * v18 (ix2 k j)) + v20 (ix2 (0 : Fin 1) j)) := by
  unfold k0_pay6
  refine (congrArg Ideal.logistic (gateSum_apply _ _ _ _ _ p j)).trans ?_
  rw [shapeCast_self, shapeCast_self, shapeCast_self]
  rfl

/-! ## The stored payloads at an index -/

theorem tanh_apply {s : Shape} {φ : FTy} (v : FVec Ideal s φ) (i : s.Idx) : tanh v i = Ideal.tanh (v i) := rfl
theorem logistic_apply {s : Shape} {φ : FTy} (v : FVec Ideal s φ) (i : s.Idx) : logistic v i = Ideal.logistic (v i) := rfl

/-- The 1 x 2048 bias row as a function of the stacked column. -/
abbrev rowOf (x5 : Vec Ideal S1x2048 .f32) : Fin 2048 → EReal := fun cc => x5 (ix2 (0 : Fin 1) cc)

/-- The two sums over the quarter of the resident matrices starting at column `off`, plus that quarter of the bias
    row, are the pre-activation at stacked column `off + j`. -/
theorem preLd_eq (off : Nat) (hoff : off + 512 ≤ 2048)
    (inbW : ∀ a, (![0, off] : Fin 2 → Nat) a + S512x512.size a ≤ S512x2048.size a)
    (inbB : ∀ a, (![0, off] : Fin 2 → Nat) a + S1x512.size a ≤ S1x2048.size a)
    (x0 x1 : Vec Ideal S1024x512 .f32) (x3 x4 : Vec Ideal S512x2048 .bf16) (x5 : Vec Ideal S1x2048 .f32) (p : Fin 1024) (j : Fin 512) :
    ((∑ k : Fin 512, x0 (ix2 p k) * View.ld x3 (Rect.unit (s := S512x2048) ![0, off] S512x512.size inbW) (ix2 k j))
        + ∑ k : Fin 512, x1 (ix2 p k) * View.ld x4 (Rect.unit (s := S512x2048) ![0, off] S512x512.size inbW) (ix2 k j))
      + View.ld x5 (Rect.unit (s := S1x2048) ![0, off] S1x512.size inbB) (ix2 (0 : Fin 1) j)
      = pre (R := 1024) x0 x1 x3 x4 (rowOf x5) p (col off hoff j) := by
  unfold pre
  rw [Finset.sum_congr rfl fun k _ => congrArg (x0 (ix2 p k) * ·) (ldW_apply off hoff inbW x3 k j),
    Finset.sum_congr rfl fun k _ => congrArg (x1 (ix2 p k) * ·) (ldW_apply off hoff inbW x4 k j),
    ldB_apply off hoff inbB x5 j]

theorem preQ0 (x0 x1 : Vec Ideal S1024x512 .f32) (x3 x4 : Vec Ideal S512x2048 .bf16) (x5 : Vec Ideal S1x2048 .f32) (p : Fin 1024) (j : Fin 512) :
    ((∑ k : Fin 512, x0 (ix2 p k) * View.ld x3 rW0 (ix2 k j)) + ∑ k : Fin 512, x1 (ix2 p k) * View.ld x4 rW0 (ix2 k j))
      + View.ld x5 rB0 (ix2 (0 : Fin 1) j) = pre (R := 1024) x0 x1 x3 x4 (rowOf x5) p (col 0 (by omega) j) :=
  preLd_eq 0 (by omega) _ _ x0 x1 x3 x4 x5 p j
theorem preQ1 (x0 x1 : Vec Ideal S1024x512 .f32) (x3 x4 : Vec Ideal S512x2048 .bf16) (x5 : Vec Ideal S1x2048 .f32) (p : Fin 1024) (j : Fin 512) :
    ((∑ k : Fin 512, x0 (ix2 p k) * View.ld x3 rW1 (ix2 k j)) + ∑ k : Fin 512, x1 (ix2 p k) * View.ld x4 rW1 (ix2 k j))
      + View.ld x5 rB1 (ix2 (0 : Fin 1) j) = pre (R := 1024) x0 x1 x3 x4 (rowOf x5) p (col 512 (by omega) j) :=
  preLd_eq 512 (by omega) _ _ x0 x1 x3 x4 x5 p j
theorem preQ2 (x0 x1 : Vec Ideal S1024x512 .f32) (x3 x4 : Vec Ideal S512x2048 .bf16) (x5 : Vec Ideal S1x2048 .f32) (p : Fin 1024) (j : Fin 512) :
    ((∑ k : Fin 512, x0 (ix2 p k) * View.ld x3 rW2 (ix2 k j)) + ∑ k : Fin 512, x1 (ix2 p k) * View.ld x4 rW2 (ix2 k j))
      + View.ld x5 rB2 (ix2 (0 : Fin 1) j) = pre (R := 1024) x0 x1 x3 x4 (rowOf x5) p (col 1024 (by omega) j) :=
  preLd_eq 1024 (by omega) _ _ x0 x1 x3 x4 x5 p j
theorem preQ3 (x0 x1 : Vec Ideal S1024x512 .f32) (x3 x4 : Vec Ideal S512x2048 .bf16) (x5 : Vec Ideal S1x2048 .f32) (p : Fin 1024) (j : Fin 512) :
    ((∑ k : Fin 512, x0 (ix2 p k) * View.ld x3 rW3 (ix2 k j)) + ∑ k : Fin 512, x1 (ix2 p k) * View.ld x4 rW3 (ix2 k j))
      + View.ld x5 rB3 (ix2 (0 : Fin 1) j) = pre (R := 1024) x0 x1 x3 x4 (rowOf x5) p (col 1536 (by omega) j) :=
  preLd_eq 1536 (by omega) _ _ x0 x1 x3 x4 x5 p j

/-- The stored cell state at (p, j) is the cell formula over the loaded blocks. -/
theorem cellPay_apply (x0 x1 x2 : Vec Ideal S1024x512 .f32) (x3 x4 : Vec Ideal S512x2048 .bf16) (x5 : Vec Ideal S1x2048 .f32)
    (p : Fin 1024) (j : Fin 512) :
    cellPay x0 x1 x2 x3 x4 x5 (ix2 p j) = cellAt (R := 1024) x0 x1 x2 x3 x4 (rowOf x5) p j := by
  unfold cellPay
  simp only [View.ld_unit_zero (S := S1024x512) hz]
  unfold k0_pay1 cellAt
  rw [addf_apply, mulf_apply, mulf_apply, pay6_apply, pay5_apply, tanh_apply, gateSum_apply]
  unfold k0_pay3 k0_pay4 k0_pay7 k0_pay8
  simp only [shapeCast_self, truncf_apply]
  rw [preQ0, preQ1, preQ2]

/-- The stored hidden state at (p, j) is the hidden formula over the loaded blocks. -/
theorem hidPay_apply (x0 x1 x2 : Vec Ideal S1024x512 .f32) (x3 x4 : Vec Ideal S512x2048 .bf16) (x5 : Vec Ideal S1x2048 .f32)
    (p : Fin 1024) (j : Fin 512) :
    hidPay x0 x1 x2 x3 x4 x5 (ix2 p j) = hidAt (R := 1024) x0 x1 x2 x3 x4 (rowOf x5) p j := by
  have hc := cellPay_apply x0 x1 x2 x3 x4 x5 p j
  unfold hidPay k0_pay2 hidAt
  show mulf (logistic _) (tanh (cellPay x0 x1 x2 x3 x4 x5)) (ix2 p j) = _
  rw [mulf_apply, tanh_apply, hc, logistic_apply, gateSum_apply]
  unfold k0_pay3 k0_pay4
  simp only [View.ld_unit_zero (S := S1024x512) hz, shapeCast_self, truncf_apply]
  rw [preQ3]

end Cert.KernelIdeal.CellValue

end
-- ==== Proof.CellArrays.lean ====
/-
  From blocks to arrays: what the two result arrays hold after the run, as one function of the arrays the region
  finds.

  Point t of the 16-point grid reads rows 1024 t … 1024 t + 1023 of u, h and c, and the whole of the two resident
  matrices and the bias row (their block index is constant); it writes back rows 1024 t … 1024 t + 1023 of each
  result. A row of a block computes what that row of the whole array computes (the formula reads one row of u, h, c),
  so what point t writes back is block t of the whole-array formula; the sixteen blocks cover the 16384 rows; hence
  each result array ends holding the formula everywhere.
-/
import proofs.«143322_j6150393167883_2_alg».proof.Proof.CellBlock

set_option maxRecDepth 16384

noncomputable section

namespace Cert.KernelIdeal.CellValue

open Cert.KernelIdeal Cert.KernelIdeal.Gen Cert.KernelIdeal.Cell Cert.CellSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The index maps, decided over the grid -/

/-- The five row windows (u, h, c and the two results) are at block (t, 0) at point t; the three resident windows
    are at block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem t_lt (t : Fin cfg0.N) : t.val < 16 := by
  have h := t.isLt
  have e : cfg0.N = 16 := N_0
  omega

/-- Row p of block t is row 1024 t + p of the array. -/
def rowAt (t : Fin cfg0.N) (p : Fin 1024) : Fin 16384 := ⟨1024 * t.val + p.val, by have := t_lt t; have := p.isLt; omega⟩

/-- Window 0's block at point t sits at rows 1024 t … of its array. -/
theorem emb0 (t : Fin cfg0.N) (p : Fin 1024) (j : Fin 512) : ((cfg0.win 0).blk t).view.emb (ix2 p j) = ix2 (rowAt t p) j := by
  obtain ⟨e0a, e0b, e1a, e1b, e2a, e2b, e6a, e6b, e7a, e7b, -⟩ := idx_facts t
  funext a; apply Fin.ext
  match a with
  | ⟨0, _⟩ => show win0_0.index t (0 : Fin 2) * 1024 + 1 * p.val = 1024 * t.val + p.val; omega
  | ⟨1, _⟩ => show win0_0.index t (1 : Fin 2) * 512 + 1 * j.val = j.val; omega
/-- Window 1's block at point t sits at rows 1024 t … of its array. -/
theorem emb1 (t : Fin cfg0.N) (p : Fin 1024) (j : Fin 512) : ((cfg0.win 1).blk t).view.emb (ix2 p j) = ix2 (rowAt t p) j := by
  obtain ⟨e0a, e0b, e1a, e1b, e2a, e2b, e6a, e6b, e7a, e7b, -⟩ := idx_facts t
  funext a; apply Fin.ext
  match a with
  | ⟨0, _⟩ => show win0_1.index t (0 : Fin 2) * 1024 + 1 * p.val = 1024 * t.val + p.val; omega
  | ⟨1, _⟩ => show win0_1.index t (1 : Fin 2) * 512 + 1 * j.val = j.val; omega
/-- Window 2's block at point t sits at rows 1024 t … of its array. -/
theorem emb2 (t : Fin cfg0.N) (p : Fin 1024) (j : Fin 512) : ((cfg0.win 2).blk t).view.emb (ix2 p j) = ix2 (rowAt t p) j := by
  obtain ⟨e0a, e0b, e1a, e1b, e2a, e2b, e6a, e6b, e7a, e7b, -⟩ := idx_facts t
  funext a; apply Fin.ext
  match a with
  | ⟨0, _⟩ => show win0_2.index t (0 : Fin 2) * 1024 + 1 * p.val = 1024 * t.val + p.val; omega
  | ⟨1, _⟩ => show win0_2.index t (1 : Fin 2) * 512 + 1 * j.val = j.val; omega
/-- Window 6's block at point t sits at rows 1024 t … of its array. -/
theorem emb6 (t : Fin cfg0.N) (p : Fin 1024) (j : Fin 512) : ((cfg0.win 6).blk t).view.emb (ix2 p j) = ix2 (rowAt t p) j := by
  obtain ⟨e0a, e0b, e1a, e1b, e2a, e2b, e6a, e6b, e7a, e7b, -⟩ := idx_facts t
  funext a; apply Fin.ext
  match a with
  | ⟨0, _⟩ => show win0_6.index t (0 : Fin 2) * 1024 + 1 * p.val = 1024 * t.val + p.val; omega
  | ⟨1, _⟩ => show win0_6.index t (1 : Fin 2) * 512 + 1 * j.val = j.val; omega
/-- Window 7's block at point t sits at rows 1024 t … of its array. -/
theorem emb7 (t : Fin cfg0.N) (p : Fin 1024) (j : Fin 512) : ((cfg0.win 7).blk t).view.emb (ix2 p j) = ix2 (rowAt t p) j := by
  obtain ⟨e0a, e0b, e1a, e1b, e2a, e2b, e6a, e6b, e7a, e7b, -⟩ := idx_facts t
  funext a; apply Fin.ext
  match a with
  | ⟨0, _⟩ => show win0_7.index t (0 : Fin 2) * 1024 + 1 * p.val = 1024 * t.val + p.val; omega
  | ⟨1, _⟩ => show win0_7.index t (1 : Fin 2) * 512 + 1 * j.val = j.val; omega

/-! ## The blocks read -/

/-- Resident window 3's block is its whole array. -/
theorem iblk3_eq (c : Dev nD) (t : Fin cfg0.N) : (iblk m c 3 t : S512x2048.Idx → EReal) = V m c main_v8 := by
  obtain ⟨e0a, e0b, e1a, e1b, e2a, e2b, e6a, e6b, e7a, e7b, e3a, e3b, e4a, e4b, e5a, e5b⟩ := idx_facts t
  funext y
  show V m c main_v8 (((cfg0.win 3).blk t).view.emb y) = V m c main_v8 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 2048 + 1 * (y 1).val = (y 1).val; omega
/-- Resident window 4's block is its whole array. -/
theorem iblk4_eq (c : Dev nD) (t : Fin cfg0.N) : (iblk m c 4 t : S512x2048.Idx → EReal) = V m c main_v10 := by
  obtain ⟨e0a, e0b, e1a, e1b, e2a, e2b, e6a, e6b, e7a, e7b, e3a, e3b, e4a, e4b, e5a, e5b⟩ := idx_facts t
  funext y
  show V m c main_v10 (((cfg0.win 4).blk t).view.emb y) = V m c main_v10 y
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 2048 + 1 * (y 1).val = (y 1).val; omega
/-- Resident window 5's block is its whole array. -/
theorem iblk5_eq (c : Dev nD) (t : Fin cfg0.N) : (iblk m c 5 t : S1x2048.Idx → EReal) = V m c main_v11 := by
  obtain ⟨e0a, e0b, e1a, e1b, e2a, e2b, e6a, e6b, e7a, e7b, e3a, e3b, e4a, e4b, e5a, e5b⟩ := idx_facts t
  funext y
  show V m c main_v11 (((cfg0.win 5).blk t).view.emb y) = V m c main_v11 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 2048 + 1 * (y 1).val = (y 1).val; omega

/-- Row window 0's block at point t reads rows 1024 t … of its array. -/
theorem iblk0_apply (c : Dev nD) (t : Fin cfg0.N) (p : Fin 1024) (k : Fin 512) :
    iblk m c 0 t (ix2 p k) = V m c main_arg0 (ix2 (rowAt t p) k) := by
  show V m c main_arg0 (((cfg0.win 0).blk t).view.emb (ix2 p k)) = _
  rw [emb0]
/-- Row window 1's block at point t reads rows 1024 t … of its array. -/
theorem iblk1_apply (c : Dev nD) (t : Fin cfg0.N) (p : Fin 1024) (k : Fin 512) :
    iblk m c 1 t (ix2 p k) = V m c main_arg1 (ix2 (rowAt t p) k) := by
  show V m c main_arg1 (((cfg0.win 1).blk t).view.emb (ix2 p k)) = _
  rw [emb1]
/-- Row window 2's block at point t reads rows 1024 t … of its array. -/
theorem iblk2_apply (c : Dev nD) (t : Fin cfg0.N) (p : Fin 1024) (k : Fin 512) :
    iblk m c 2 t (ix2 p k) = V m c main_arg2 (ix2 (rowAt t p) k) := by
  show V m c main_arg2 (((cfg0.win 2).blk t).view.emb (ix2 p k)) = _
  rw [emb2]

/-! ## The whole-array formulas -/

/-- The hidden-state array as a function of the arrays the region finds. -/
def hidG (c : Dev nD) : S16384x512.Idx → EReal := fun i =>
  hidAt (R := 16384) (V m c main_arg0) (V m c main_arg1) (V m c main_arg2) (V m c main_v8) (V m c main_v10) (rowOf (V m c main_v11)) (i 0) (i 1)
/-- The cell-state array as a function of the arrays the region finds. -/
def cellG (c : Dev nD) : S16384x512.Idx → EReal := fun i =>
  cellAt (R := 16384) (V m c main_arg0) (V m c main_arg1) (V m c main_arg2) (V m c main_v8) (V m c main_v10) (rowOf (V m c main_v11)) (i 0) (i 1)

/-! ## Result window 6 -/

/-- What point t writes back to window 6's array is block t of the whole-array formula. -/
theorem flushed6_eq (c : Dev nD) (t : Fin cfg0.N) :
    (dats m 0 c).flushed 6 t = ((cfg0.win 6).blk t).view.read (Elt Ideal) (hidG m c) := by
  show (cfg0.win 6).cut (grid0.coords t) ((dats m 0 c).after 6 t) = _
  rw [after0_6]
  unfold out0_6
  rw [View.canon_unit_zero hz]
  funext y
  obtain ⟨p, j, rfl⟩ : ∃ (p : Fin 1024) (j : Fin 512), y = ix2 p j := ⟨y 0, y 1, eq_ix2 y⟩
  show hidPay (iblk m c 0 t) (iblk m c 1 t) (iblk m c 2 t) (iblk m c 3 t) (iblk m c 4 t) (iblk m c 5 t) (ix2 p j) = hidG m c (((cfg0.win 6).blk t).view.emb (ix2 p j))
  rw [emb6]
  refine (hidPay_apply (iblk m c 0 t) (iblk m c 1 t) (iblk m c 2 t) (iblk m c 3 t) (iblk m c 4 t) (iblk m c 5 t) p j).trans ?_
  show hidAt (R := 1024) (iblk m c 0 t) (iblk m c 1 t) (iblk m c 2 t) (iblk m c 3 t) (iblk m c 4 t) (rowOf (iblk m c 5 t)) p j
      = hidAt (R := 16384) (V m c main_arg0) (V m c main_arg1) (V m c main_arg2) (V m c main_v8) (V m c main_v10) (rowOf (V m c main_v11)) (rowAt t p) j
  rw [iblk3_eq m c t, iblk4_eq m c t, iblk5_eq m c t]
  exact hidAt_congr (V m c main_arg0) (V m c main_arg1) (V m c main_arg2) (iblk m c 0 t) (iblk m c 1 t) (iblk m c 2 t)
    (V m c main_v8) (V m c main_v10) (rowOf (V m c main_v11)) (rowAt t p) p
    (iblk0_apply m c t p) (iblk1_apply m c t p) (iblk2_apply m c t p) j

/-- An index of the array is in point t's block iff each coordinate is in the block's range on its axis. -/
theorem mem_blk6 (t : Fin cfg0.N) (i : S16384x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v12_0).slice (win0_6.rect t)).set ↔ _
  rw [View.set_slice_whole, Rect.mem_set_unit]
  exact Iff.rfl

/-- Row r lies in the block of point r / 1024: the sixteen blocks cover the array. -/
theorem cover6 (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 16 := N_0
  obtain ⟨t, ht⟩ : ∃ t : Fin cfg0.N, t.val = (i 0).val / 1024 := ⟨⟨(i 0).val / 1024, by omega⟩, rfl⟩
  obtain ⟨e0a, e0b, e1a, e1b, e2a, e2b, e6a, e6b, e7a, e7b, e3a, e3b, e4a, e4b, e5a, e5b⟩ := idx_facts t
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

/-- The array after the run: the whole-array formula of the arrays the region finds. -/
theorem final6 (c : Dev nD) : (dats m 0 c).arrAt 6 cfg0.N = hidG m c :=
  (dats m 0 c).arrAt_eq_of_cover 6 (hidG m c) (fun t _ => flushed6_eq m c t) cover6

/-! ## Result window 7 -/

/-- What point t writes back to window 7's array is block t of the whole-array formula. -/
theorem flushed7_eq (c : Dev nD) (t : Fin cfg0.N) :
    (dats m 0 c).flushed 7 t = ((cfg0.win 7).blk t).view.read (Elt Ideal) (cellG m c) := by
  show (cfg0.win 7).cut (grid0.coords t) ((dats m 0 c).after 7 t) = _
  rw [after0_7]
  unfold out0_7
  rw [View.canon_unit_zero hz]
  funext y
  obtain ⟨p, j, rfl⟩ : ∃ (p : Fin 1024) (j : Fin 512), y = ix2 p j := ⟨y 0, y 1, eq_ix2 y⟩
  show cellPay (iblk m c 0 t) (iblk m c 1 t) (iblk m c 2 t) (iblk m c 3 t) (iblk m c 4 t) (iblk m c 5 t) (ix2 p j) = cellG m c (((cfg0.win 7).blk t).view.emb (ix2 p j))
  rw [emb7]
  refine (cellPay_apply (iblk m c 0 t) (iblk m c 1 t) (iblk m c 2 t) (iblk m c 3 t) (iblk m c 4 t) (iblk m c 5 t) p j).trans ?_
  show cellAt (R := 1024) (iblk m c 0 t) (iblk m c 1 t) (iblk m c 2 t) (iblk m c 3 t) (iblk m c 4 t) (rowOf (iblk m c 5 t)) p j
      = cellAt (R := 16384) (V m c main_arg0) (V m c main_arg1) (V m c main_arg2) (V m c main_v8) (V m c main_v10) (rowOf (V m c main_v11)) (rowAt t p) j
  rw [iblk3_eq m c t, iblk4_eq m c t, iblk5_eq m c t]
  exact cellAt_congr (V m c main_arg0) (V m c main_arg1) (V m c main_arg2) (iblk m c 0 t) (iblk m c 1 t) (iblk m c 2 t)
    (V m c main_v8) (V m c main_v10) (rowOf (V m c main_v11)) (rowAt t p) p
    (iblk0_apply m c t p) (iblk1_apply m c t p) (iblk2_apply m c t p) j

/-- An index of the array is in point t's block iff each coordinate is in the block's range on its axis. -/
theorem mem_blk7 (t : Fin cfg0.N) (i : S16384x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v12_1).slice (win0_7.rect t)).set ↔ _
  rw [View.set_slice_whole, Rect.mem_set_unit]
  exact Iff.rfl

/-- Row r lies in the block of point r / 1024: the sixteen blocks cover the array. -/
theorem cover7 (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 16 := N_0
  obtain ⟨t, ht⟩ : ∃ t : Fin cfg0.N, t.val = (i 0).val / 1024 := ⟨⟨(i 0).val / 1024, by omega⟩, rfl⟩
  obtain ⟨e0a, e0b, e1a, e1b, e2a, e2b, e6a, e6b, e7a, e7b, e3a, e3b, e4a, e4b, e5a, e5b⟩ := idx_facts t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 512 ≤ (i 1).val ∧ (i 1).val < win0_7.index t (1 : Fin 2) * 512 + 512; omega

/-- The array after the run: the whole-array formula of the arrays the region finds. -/
theorem final7 (c : Dev nD) : (dats m 0 c).arrAt 7 cfg0.N = cellG m c :=
  (dats m 0 c).arrAt_eq_of_cover 7 (cellG m c) (fun t _ => flushed7_eq m c t) cover7

end Cert.KernelIdeal.CellValue

end
-- ==== Proof.CellRef.lean ====
/-
  The reference's run read at an index, on the extended reals: it is the cell formula of its arguments.

  The reference multiplies u and h by the two stacked matrices transposed, adds the first bias vector and then the
  second (each laid end to end from its four gate pieces and repeated over the rows), cuts the 2048 columns into the
  four gates, and applies 1 / (1 + exp (-z)) to three of them and tanh to the fourth. Read at row r and column j:
  the pre-activation at stacked column cc is the two sums plus the two biases, which is CellSpec.pre with the summed
  bias because addition of extended reals is associative; 1 / (1 + exp (-z)) with the literal 1.0 is the logistic
  function by definition; so the second result is CellSpec.cellAt and the first CellSpec.hidAt.
-/
import proofs.«143322_j6150393167883_2_alg».proof.Proof.Gen.ReferenceIdeal.Read
import proofs.«143322_j6150393167883_2_alg».proof.Proof.CellSpec
import Idealize.ShloMosaic.PureOps.IdealRules

set_option maxRecDepth 16384

noncomputable section

namespace Cert.ReferenceIdeal.CellRef

open Cert.ReferenceIdeal Cert.ReferenceIdeal.Gen Cert.ReferenceIdeal.Read Cert.CellSpec
open Idealize.ShloMosaic Idealize.ShloMosaic.TcCoe Idealize.ShloMosaic.ValueIdx Idealize.SL.Sem

variable (x0 x1 x2 : (⟨S16384x512, .f32⟩ : BufTy).Contents (Elt Ideal))
  (x3 x5 x7 x9 x11 x12 x13 x14 : (⟨S512x512, .f32⟩ : BufTy).Contents (Elt Ideal))
  (x4 x6 x8 x10 x15 x16 x17 x18 : (⟨S512, .f32⟩ : BufTy).Contents (Elt Ideal))

/-- The two bias vectors, each its four gate pieces end to end, added position by position. -/
def bsum : Fin 2048 → EReal := fun cc =>
  val_main_v2 (F := Ideal) x4 x6 x8 x10 (ix1 cc) + val_main_v3 (F := Ideal) x15 x16 x17 x18 (ix1 cc)

/-- The pre-activations (before the cut into gates) at row r and stacked column cc. -/
theorem z_apply (r : Fin 16384) (cc : Fin 2048) :
    val_main_v14 (F := Ideal) x0 x1 x3 x4 x5 x6 x7 x8 x9 x10 x11 x12 x13 x14 x15 x16 x17 x18 (ix2 r cc) = pre (R := 16384) x0 x1 (val_main_v4 (F := Ideal) x3 x5 x7 x9) (val_main_v6 (F := Ideal) x11 x12 x13 x14) (bsum x4 x6 x8 x10 x15 x16 x17 x18) r cc := by
  rw [val_main_v14_apply, val_main_v13_apply, val_main_v12_apply, val_main_v11_apply, val_main_v10_apply, val_main_v9_apply,
    val_main_v8_apply, val_main_v5_apply, val_main_v7_apply]
  have el5 : ∀ k, lidx_main_v5 (ix2 r cc) k = ix2 r k := fun k => funext fun a => by
    match a with | ⟨0, _⟩ => rfl | ⟨1, _⟩ => rfl
  have er5 : ∀ k, ridx_main_v5 (ix2 r cc) k = ix2 k cc := fun k => funext fun a => by
    match a with | ⟨0, _⟩ => rfl | ⟨1, _⟩ => rfl
  have el7 : ∀ k, lidx_main_v7 (ix2 r cc) k = ix2 r k := fun k => funext fun a => by
    match a with | ⟨0, _⟩ => rfl | ⟨1, _⟩ => rfl
  have er7 : ∀ k, ridx_main_v7 (ix2 r cc) k = ix2 k cc := fun k => funext fun a => by
    match a with | ⟨0, _⟩ => rfl | ⟨1, _⟩ => rfl
  have eb1 : idx_main_v9 (idx_main_v10 (ix2 r cc)) = ix1 cc := funext fun a => by
    match a with | ⟨0, _⟩ => rfl
  have eb2 : idx_main_v12 (idx_main_v13 (ix2 r cc)) = ix1 cc := funext fun a => by
    match a with | ⟨0, _⟩ => rfl
  simp only [el5, er5, el7, er7, eb1, eb2, Ideal.addf_def]
  exact pre_two_biases x0 x1 (val_main_v4 (F := Ideal) x3 x5 x7 x9) (val_main_v6 (F := Ideal) x11 x12 x13 x14) (fun cc => val_main_v2 (F := Ideal) x4 x6 x8 x10 (ix1 cc))
    (fun cc => val_main_v3 (F := Ideal) x15 x16 x17 x18 (ix1 cc)) r cc

/-- Gate 0's slice of the pre-activations: columns 0 … 511 of the 2048. -/
theorem gate0 (r : Fin 16384) (j : Fin 512) :
    val_main_v15 (F := Ideal) x0 x1 x3 x4 x5 x6 x7 x8 x9 x10 x11 x12 x13 x14 x15 x16 x17 x18 (ix2 r j) = pre (R := 16384) x0 x1 (val_main_v4 (F := Ideal) x3 x5 x7 x9) (val_main_v6 (F := Ideal) x11 x12 x13 x14) (bsum x4 x6 x8 x10 x15 x16 x17 x18) r (col 0 (by omega) j) := by
  rw [val_main_v15_apply]
  have e : idx_main_v15 (ix2 r j) = ix2 r (col 0 (by omega) j) := funext fun a => by
    match a with
    | ⟨0, _⟩ => rfl
    | ⟨1, _⟩ => exact Fin.ext (by show j.val = 0 + j.val; omega)
  rw [e]
  exact z_apply x0 x1 x3 x5 x7 x9 x11 x12 x13 x14 x4 x6 x8 x10 x15 x16 x17 x18 r _
/-- Gate 1's slice of the pre-activations: columns 512 … 1023 of the 2048. -/
theorem gate1 (r : Fin 16384) (j : Fin 512) :
    val_main_v16 (F := Ideal) x0 x1 x3 x4 x5 x6 x7 x8 x9 x10 x11 x12 x13 x14 x15 x16 x17 x18 (ix2 r j) = pre (R := 16384) x0 x1 (val_main_v4 (F := Ideal) x3 x5 x7 x9) (val_main_v6 (F := Ideal) x11 x12 x13 x14) (bsum x4 x6 x8 x10 x15 x16 x17 x18) r (col 512 (by omega) j) := by
  rw [val_main_v16_apply]
  have e : idx_main_v16 (ix2 r j) = ix2 r (col 512 (by omega) j) := funext fun a => by
    match a with
    | ⟨0, _⟩ => rfl
    | ⟨1, _⟩ => exact Fin.ext (by show 512 + j.val = 512 + j.val; omega)
  rw [e]
  exact z_apply x0 x1 x3 x5 x7 x9 x11 x12 x13 x14 x4 x6 x8 x10 x15 x16 x17 x18 r _
/-- Gate 2's slice of the pre-activations: columns 1024 … 1535 of the 2048. -/
theorem gate2 (r : Fin 16384) (j : Fin 512) :
    val_main_v17 (F := Ideal) x0 x1 x3 x4 x5 x6 x7 x8 x9 x10 x11 x12 x13 x14 x15 x16 x17 x18 (ix2 r j) = pre (R := 16384) x0 x1 (val_main_v4 (F := Ideal) x3 x5 x7 x9) (val_main_v6 (F := Ideal) x11 x12 x13 x14) (bsum x4 x6 x8 x10 x15 x16 x17 x18) r (col 1024 (by omega) j) := by
  rw [val_main_v17_apply]
  have e : idx_main_v17 (ix2 r j) = ix2 r (col 1024 (by omega) j) := funext fun a => by
    match a with
    | ⟨0, _⟩ => rfl
    | ⟨1, _⟩ => exact Fin.ext (by show 1024 + j.val = 1024 + j.val; omega)
  rw [e]
  exact z_apply x0 x1 x3 x5 x7 x9 x11 x12 x13 x14 x4 x6 x8 x10 x15 x16 x17 x18 r _
/-- Gate 3's slice of the pre-activations: columns 1536 … 2047 of the 2048. -/
theorem gate3 (r : Fin 16384) (j : Fin 512) :
    val_main_v18 (F := Ideal) x0 x1 x3 x4 x5 x6 x7 x8 x9 x10 x11 x12 x13 x14 x15 x16 x17 x18 (ix2 r j) = pre (R := 16384) x0 x1 (val_main_v4 (F := Ideal) x3 x5 x7 x9) (val_main_v6 (F := Ideal) x11 x12 x13 x14) (bsum x4 x6 x8 x10 x15 x16 x17 x18) r (col 1536 (by omega) j) := by
  rw [val_main_v18_apply]
  have e : idx_main_v18 (ix2 r j) = ix2 r (col 1536 (by omega) j) := funext fun a => by
    match a with
    | ⟨0, _⟩ => rfl
    | ⟨1, _⟩ => exact Fin.ext (by show 1536 + j.val = 1536 + j.val; omega)
  rw [e]
  exact z_apply x0 x1 x3 x5 x7 x9 x11 x12 x13 x14 x4 x6 x8 x10 x15 x16 x17 x18 r _

/-- The literal 1.0 is the real number 1. -/
theorem one_f32 : Ideal.ofBits .f32 0x3F800000#32 = 1 := IdealRules.sign_bit.ideal_onePat .f32

/-- 1 / (1 + exp (-z)), the 1's the literal 1.0, is the logistic function, on every extended real. -/
theorem sig_eq (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = _
  rw [one_f32]
  rfl

/-- The reference's second result (the new cell state) at row r, column j. -/
theorem cell_apply (r : Fin 16384) (j : Fin 512) :
    val_main_v40 (F := Ideal) x0 x1 x2 x3 x4 x5 x6 x7 x8 x9 x10 x11 x12 x13 x14 x15 x16 x17 x18 (ix2 r j) = cellAt (R := 16384) x0 x1 x2 (val_main_v4 (F := Ideal) x3 x5 x7 x9) (val_main_v6 (F := Ideal) x11 x12 x13 x14) (bsum x4 x6 x8 x10 x15 x16 x17 x18) r j := by
  simp only [val_main_v40_apply, val_main_v39_apply, val_main_v38_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_cst_apply, val_main_cst_0_apply, val_main_cst_1_apply, val_main_cst_2_apply,
    gate0, gate1, gate2, sig_eq]
  rfl

/-- The reference's first result (the new hidden state) at row r, column j. -/
theorem hid_apply (r : Fin 16384) (j : Fin 512) :
    val_main_v42 (F := Ideal) x0 x1 x2 x3 x4 x5 x6 x7 x8 x9 x10 x11 x12 x13 x14 x15 x16 x17 x18 (ix2 r j) = hidAt (R := 16384) x0 x1 x2 (val_main_v4 (F := Ideal) x3 x5 x7 x9) (val_main_v6 (F := Ideal) x11 x12 x13 x14) (bsum x4 x6 x8 x10 x15 x16 x17 x18) r j := by
  simp only [val_main_v42_apply, val_main_v41_apply, val_main_v37_apply, val_main_v36_apply, val_main_v35_apply, val_main_v34_apply, val_main_v33_apply, val_main_v32_apply, val_main_cst_3_apply, val_main_cst_4_apply, gate3, sig_eq, cell_apply]
  rfl

/-- The two results as whole arrays. -/
theorem hid_eq : val_main_v42 (F := Ideal) x0 x1 x2 x3 x4 x5 x6 x7 x8 x9 x10 x11 x12 x13 x14 x15 x16 x17 x18 = fun i => hidAt (R := 16384) x0 x1 x2 (val_main_v4 (F := Ideal) x3 x5 x7 x9) (val_main_v6 (F := Ideal) x11 x12 x13 x14) (bsum x4 x6 x8 x10 x15 x16 x17 x18) (i 0) (i 1) := by
  funext i
  obtain ⟨r, j, rfl⟩ : ∃ (r : Fin 16384) (j : Fin 512), i = ix2 r j := ⟨i 0, i 1, eq_ix2 i⟩
  exact hid_apply x0 x1 x2 x3 x5 x7 x9 x11 x12 x13 x14 x4 x6 x8 x10 x15 x16 x17 x18 r j
theorem cell_eq : val_main_v40 (F := Ideal) x0 x1 x2 x3 x4 x5 x6 x7 x8 x9 x10 x11 x12 x13 x14 x15 x16 x17 x18 = fun i => cellAt (R := 16384) x0 x1 x2 (val_main_v4 (F := Ideal) x3 x5 x7 x9) (val_main_v6 (F := Ideal) x11 x12 x13 x14) (bsum x4 x6 x8 x10 x15 x16 x17 x18) (i 0) (i 1) := by
  funext i
  obtain ⟨r, j, rfl⟩ : ∃ (r : Fin 16384) (j : Fin 512), i = ix2 r j := ⟨i 0, i 1, eq_ix2 i⟩
  exact cell_apply x0 x1 x2 x3 x5 x7 x9 x11 x12 x13 x14 x4 x6 x8 x10 x15 x16 x17 x18 r j

end Cert.ReferenceIdeal.CellRef

end
-- ==== Proof.CellBias.lean ====
/-
  The bias of the stacked gates. One program adds the two bias vectors of each gate and then lays the four sums end
  to end; the other lays the four first biases end to end, the four second biases end to end, and adds the two long
  vectors. Position cc of a 4 x 512 concatenation is position cc - 512 k of piece k = cc / 512, the same piece
  and position in all three concatenations, so the two long vectors agree at every position.
-/
import Idealize.ShloMosaic.PureOps.Ideal
import Idealize.ShloMosaic.Lib.Pipeline.Value
import Idealize.ShloMosaic.Lib.ValueIdx

set_option maxRecDepth 16384

noncomputable section

namespace Cert.CellSpec

open Idealize.ShloMosaic Idealize.ShloMosaic.ValueIdx

/-- Four 512-vectors of sums laid end to end, read at `cc`: the two concatenations read at `cc`, added. -/
theorem concat4_add (a0 a1 a2 a3 b0 b1 b2 b3 : (⟨1, ![512]⟩ : Shape).Idx → EReal)
    (h : Shape.Concatenates [(⟨1, ![512]⟩ : Shape), (⟨1, ![512]⟩ : Shape), (⟨1, ![512]⟩ : Shape), (⟨1, ![512]⟩ : Shape)] (⟨1, ![2048]⟩ : Shape) (0 : Fin 1)) (cc : Fin 2048) :
    concatenate (⟨1, ![2048]⟩ : Shape) (0 : Fin 1) [⟨(⟨1, ![512]⟩ : Shape), fun x => a0 x + b0 x⟩, ⟨(⟨1, ![512]⟩ : Shape), fun x => a1 x + b1 x⟩, ⟨(⟨1, ![512]⟩ : Shape), fun x => a2 x + b2 x⟩, ⟨(⟨1, ![512]⟩ : Shape), fun x => a3 x + b3 x⟩] h (ix1 cc)
      = concatenate (⟨1, ![2048]⟩ : Shape) (0 : Fin 1) [⟨(⟨1, ![512]⟩ : Shape), a0⟩, ⟨(⟨1, ![512]⟩ : Shape), a1⟩, ⟨(⟨1, ![512]⟩ : Shape), a2⟩, ⟨(⟨1, ![512]⟩ : Shape), a3⟩] h (ix1 cc)
        + concatenate (⟨1, ![2048]⟩ : Shape) (0 : Fin 1) [⟨(⟨1, ![512]⟩ : Shape), b0⟩, ⟨(⟨1, ![512]⟩ : Shape), b1⟩, ⟨(⟨1, ![512]⟩ : Shape), b2⟩, ⟨(⟨1, ![512]⟩ : Shape), b3⟩] h (ix1 cc) := by
  have hcc : cc.val < 2048 := cc.isLt
  by_cases h0 : cc.val < 512
  ·
    have hk0 : 0 + (cc.val - 0) = cc.val := by omega
    rw [concatenate_apply_piece (t := (⟨1, ![2048]⟩ : Shape)) (0 : Fin 1) [⟨(⟨1, ![512]⟩ : Shape), fun x => a0 x + b0 x⟩, ⟨(⟨1, ![512]⟩ : Shape), fun x => a1 x + b1 x⟩, ⟨(⟨1, ![512]⟩ : Shape), fun x => a2 x + b2 x⟩, ⟨(⟨1, ![512]⟩ : Shape), fun x => a3 x + b3 x⟩] h (ix1 cc)
        0 (show (0 : ℕ) < 4 by omega) (⟨1, ![512]⟩ : Shape) (fun x => a0 x + b0 x) rfl rfl 0 rfl (ix1 (⟨cc.val - 0, by omega⟩ : Fin 512)) (fun b hb => absurd (Fin.ext (by have hb1 : b.val < 1 := b.isLt; show b.val = 0; omega)) hb) hk0,
      concatenate_apply_piece (t := (⟨1, ![2048]⟩ : Shape)) (0 : Fin 1) [⟨(⟨1, ![512]⟩ : Shape), a0⟩, ⟨(⟨1, ![512]⟩ : Shape), a1⟩, ⟨(⟨1, ![512]⟩ : Shape), a2⟩, ⟨(⟨1, ![512]⟩ : Shape), a3⟩] h (ix1 cc)
        0 (show (0 : ℕ) < 4 by omega) (⟨1, ![512]⟩ : Shape) a0 rfl rfl 0 rfl (ix1 (⟨cc.val - 0, by omega⟩ : Fin 512)) (fun b hb => absurd (Fin.ext (by have hb1 : b.val < 1 := b.isLt; show b.val = 0; omega)) hb) hk0,
      concatenate_apply_piece (t := (⟨1, ![2048]⟩ : Shape)) (0 : Fin 1) [⟨(⟨1, ![512]⟩ : Shape), b0⟩, ⟨(⟨1, ![512]⟩ : Shape), b1⟩, ⟨(⟨1, ![512]⟩ : Shape), b2⟩, ⟨(⟨1, ![512]⟩ : Shape), b3⟩] h (ix1 cc)
        0 (show (0 : ℕ) < 4 by omega) (⟨1, ![512]⟩ : Shape) b0 rfl rfl 0 rfl (ix1 (⟨cc.val - 0, by omega⟩ : Fin 512)) (fun b hb => absurd (Fin.ext (by have hb1 : b.val < 1 := b.isLt; show b.val = 0; omega)) hb) hk0]
  by_cases h1 : cc.val < 1024
  ·
    have hk1 : 512 + (cc.val - 512) = cc.val := by omega
    rw [concatenate_apply_piece (t := (⟨1, ![2048]⟩ : Shape)) (0 : Fin 1) [⟨(⟨1, ![512]⟩ : Shape), fun x => a0 x + b0 x⟩, ⟨(⟨1, ![512]⟩ : Shape), fun x => a1 x + b1 x⟩, ⟨(⟨1, ![512]⟩ : Shape), fun x => a2 x + b2 x⟩, ⟨(⟨1, ![512]⟩ : Shape), fun x => a3 x + b3 x⟩] h (ix1 cc)
        1 (show (1 : ℕ) < 4 by omega) (⟨1, ![512]⟩ : Shape) (fun x => a1 x + b1 x) rfl rfl 512 rfl (ix1 (⟨cc.val - 512, by omega⟩ : Fin 512)) (fun b hb => absurd (Fin.ext (by have hb1 : b.val < 1 := b.isLt; show b.val = 0; omega)) hb) hk1,
      concatenate_apply_piece (t := (⟨1, ![2048]⟩ : Shape)) (0 : Fin 1) [⟨(⟨1, ![512]⟩ : Shape), a0⟩, ⟨(⟨1, ![512]⟩ : Shape), a1⟩, ⟨(⟨1, ![512]⟩ : Shape), a2⟩, ⟨(⟨1, ![512]⟩ : Shape), a3⟩] h (ix1 cc)
        1 (show (1 : ℕ) < 4 by omega) (⟨1, ![512]⟩ : Shape) a1 rfl rfl 512 rfl (ix1 (⟨cc.val - 512, by omega⟩ : Fin 512)) (fun b hb => absurd (Fin.ext (by have hb1 : b.val < 1 := b.isLt; show b.val = 0; omega)) hb) hk1,
      concatenate_apply_piece (t := (⟨1, ![2048]⟩ : Shape)) (0 : Fin 1) [⟨(⟨1, ![512]⟩ : Shape), b0⟩, ⟨(⟨1, ![512]⟩ : Shape), b1⟩, ⟨(⟨1, ![512]⟩ : Shape), b2⟩, ⟨(⟨1, ![512]⟩ : Shape), b3⟩] h (ix1 cc)
        1 (show (1 : ℕ) < 4 by omega) (⟨1, ![512]⟩ : Shape) b1 rfl rfl 512 rfl (ix1 (⟨cc.val - 512, by omega⟩ : Fin 512)) (fun b hb => absurd (Fin.ext (by have hb1 : b.val < 1 := b.isLt; show b.val = 0; omega)) hb) hk1]
  by_cases h2 : cc.val < 1536
  ·
    have hk2 : 1024 + (cc.val - 1024) = cc.val := by omega
    rw [concatenate_apply_piece (t := (⟨1, ![2048]⟩ : Shape)) (0 : Fin 1) [⟨(⟨1, ![512]⟩ : Shape), fun x => a0 x + b0 x⟩, ⟨(⟨1, ![512]⟩ : Shape), fun x => a1 x + b1 x⟩, ⟨(⟨1, ![512]⟩ : Shape), fun x => a2 x + b2 x⟩, ⟨(⟨1, ![512]⟩ : Shape), fun x => a3 x + b3 x⟩] h (ix1 cc)
        2 (show (2 : ℕ) < 4 by omega) (⟨1, ![512]⟩ : Shape) (fun x => a2 x + b2 x) rfl rfl 1024 rfl (ix1 (⟨cc.val - 1024, by omega⟩ : Fin 512)) (fun b hb => absurd (Fin.ext (by have hb1 : b.val < 1 := b.isLt; show b.val = 0; omega)) hb) hk2,
      concatenate_apply_piece (t := (⟨1, ![2048]⟩ : Shape)) (0 : Fin 1) [⟨(⟨1, ![512]⟩ : Shape), a0⟩, ⟨(⟨1, ![512]⟩ : Shape), a1⟩, ⟨(⟨1, ![512]⟩ : Shape), a2⟩, ⟨(⟨1, ![512]⟩ : Shape), a3⟩] h (ix1 cc)
        2 (show (2 : ℕ) < 4 by omega) (⟨1, ![512]⟩ : Shape) a2 rfl rfl 1024 rfl (ix1 (⟨cc.val - 1024, by omega⟩ : Fin 512)) (fun b hb => absurd (Fin.ext (by have hb1 : b.val < 1 := b.isLt; show b.val = 0; omega)) hb) hk2,
      concatenate_apply_piece (t := (⟨1, ![2048]⟩ : Shape)) (0 : Fin 1) [⟨(⟨1, ![512]⟩ : Shape), b0⟩, ⟨(⟨1, ![512]⟩ : Shape), b1⟩, ⟨(⟨1, ![512]⟩ : Shape), b2⟩, ⟨(⟨1, ![512]⟩ : Shape), b3⟩] h (ix1 cc)
        2 (show (2 : ℕ) < 4 by omega) (⟨1, ![512]⟩ : Shape) b2 rfl rfl 1024 rfl (ix1 (⟨cc.val - 1024, by omega⟩ : Fin 512)) (fun b hb => absurd (Fin.ext (by have hb1 : b.val < 1 := b.isLt; show b.val = 0; omega)) hb) hk2]
  ·
    have hk3 : 1536 + (cc.val - 1536) = cc.val := by omega
    rw [concatenate_apply_piece (t := (⟨1, ![2048]⟩ : Shape)) (0 : Fin 1) [⟨(⟨1, ![512]⟩ : Shape), fun x => a0 x + b0 x⟩, ⟨(⟨1, ![512]⟩ : Shape), fun x => a1 x + b1 x⟩, ⟨(⟨1, ![512]⟩ : Shape), fun x => a2 x + b2 x⟩, ⟨(⟨1, ![512]⟩ : Shape), fun x => a3 x + b3 x⟩] h (ix1 cc)
        3 (show (3 : ℕ) < 4 by omega) (⟨1, ![512]⟩ : Shape) (fun x => a3 x + b3 x) rfl rfl 1536 rfl (ix1 (⟨cc.val - 1536, by omega⟩ : Fin 512)) (fun b hb => absurd (Fin.ext (by have hb1 : b.val < 1 := b.isLt; show b.val = 0; omega)) hb) hk3,
      concatenate_apply_piece (t := (⟨1, ![2048]⟩ : Shape)) (0 : Fin 1) [⟨(⟨1, ![512]⟩ : Shape), a0⟩, ⟨(⟨1, ![512]⟩ : Shape), a1⟩, ⟨(⟨1, ![512]⟩ : Shape), a2⟩, ⟨(⟨1, ![512]⟩ : Shape), a3⟩] h (ix1 cc)
        3 (show (3 : ℕ) < 4 by omega) (⟨1, ![512]⟩ : Shape) a3 rfl rfl 1536 rfl (ix1 (⟨cc.val - 1536, by omega⟩ : Fin 512)) (fun b hb => absurd (Fin.ext (by have hb1 : b.val < 1 := b.isLt; show b.val = 0; omega)) hb) hk3,
      concatenate_apply_piece (t := (⟨1, ![2048]⟩ : Shape)) (0 : Fin 1) [⟨(⟨1, ![512]⟩ : Shape), b0⟩, ⟨(⟨1, ![512]⟩ : Shape), b1⟩, ⟨(⟨1, ![512]⟩ : Shape), b2⟩, ⟨(⟨1, ![512]⟩ : Shape), b3⟩] h (ix1 cc)
        3 (show (3 : ℕ) < 4 by omega) (⟨1, ![512]⟩ : Shape) b3 rfl rfl 1536 rfl (ix1 (⟨cc.val - 1536, by omega⟩ : Fin 512)) (fun b hb => absurd (Fin.ext (by have hb1 : b.val < 1 := b.isLt; show b.val = 0; omega)) hb) hk3]

end Cert.CellSpec

end
-- ==== Proof.CellHost.lean ====
/-
  What the host prefix leaves in the three buffers the region's resident windows stage, on the extended reals, and
  with it the two result arrays as functions of the nineteen arguments.

  The two stacked matrices are the four gate matrices laid end to end and transposed, then changed to the matrix
  unit's operand format, which on extended reals changes nothing: exactly the transposed stacks the reference
  multiplies by. The bias row is the four sums of bias pairs laid end to end and given a leading unit axis; at
  position cc it is the reference's two long bias vectors at cc, added (CellSpec.concat4_add).
-/
import proofs.«143322_j6150393167883_2_alg».proof.Proof.CellArrays
import proofs.«143322_j6150393167883_2_alg».proof.Proof.CellRef
import proofs.«143322_j6150393167883_2_alg».proof.Proof.CellBias
import Idealize.ShloMosaic.Lib.StableHlo.Run

set_option maxRecDepth 16384

noncomputable section

namespace Cert.KernelIdeal.CellValue

open Cert.KernelIdeal Cert.KernelIdeal.Gen Cert.KernelIdeal.Cell Cert.CellSpec
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The first resident matrix: the four input-projection matrices stacked and transposed. -/
theorem V_v8 (c : Dev nD) : (V m c main_v8 : S512x2048.Idx → EReal) = (Cert.ReferenceIdeal.Read.val_main_v4 (F := Ideal) (m ((c : Thread nD τ).loc main_arg3)) (m ((c : Thread nD τ).loc main_arg5)) (m ((c : Thread nD τ).loc main_arg7)) (m ((c : Thread nD τ).loc main_arg9))) := by
  dsimp only [V, hostOps0]
  after_results
  rfl

/-- The second resident matrix: the four recurrent matrices stacked and transposed. -/
theorem V_v10 (c : Dev nD) : (V m c main_v10 : S512x2048.Idx → EReal) = (Cert.ReferenceIdeal.Read.val_main_v6 (F := Ideal) (m ((c : Thread nD τ).loc main_arg11)) (m ((c : Thread nD τ).loc main_arg12)) (m ((c : Thread nD τ).loc main_arg13)) (m ((c : Thread nD τ).loc main_arg14))) := by
  dsimp only [V, hostOps0]
  after_results
  rfl

/-- A buffer of 512 floats as a function to the extended reals. -/
abbrev vec512 (f : S512.Idx → EReal) : S512.Idx → EReal := f

/-- The bias row before it is read at a position: the four sums of bias pairs end to end, under a leading unit axis. -/
theorem V_v11 (c : Dev nD) : (V m c main_v11 : S1x2048.Idx → EReal)
    = (shapeCast S1x2048 (concatenate (α := EReal) S2048 0 [⟨S512, fun x => vec512 (m ((c : Thread nD τ).loc main_arg4)) x + vec512 (m ((c : Thread nD τ).loc main_arg15)) x⟩, ⟨S512, fun x => vec512 (m ((c : Thread nD τ).loc main_arg6)) x + vec512 (m ((c : Thread nD τ).loc main_arg16)) x⟩,
        ⟨S512, fun x => vec512 (m ((c : Thread nD τ).loc main_arg8)) x + vec512 (m ((c : Thread nD τ).loc main_arg17)) x⟩, ⟨S512, fun x => vec512 (m ((c : Thread nD τ).loc main_arg10)) x + vec512 (m ((c : Thread nD τ).loc main_arg18)) x⟩] concatenates_S512_S512_S512_S512_S2048_d0) shapeCasts_S2048_S1x2048 : S1x2048.Idx → EReal) := by
  dsimp only [V, hostOps0]
  after_results
  rfl

/-- The bias row at position cc: the two long bias vectors at cc, added. -/
theorem V_v11_row (c : Dev nD) (cc : Fin 2048) : rowOf (V m c main_v11) cc = (Cert.ReferenceIdeal.CellRef.bsum (m ((c : Thread nD τ).loc main_arg4)) (m ((c : Thread nD τ).loc main_arg6)) (m ((c : Thread nD τ).loc main_arg8)) (m ((c : Thread nD τ).loc main_arg10)) (m ((c : Thread nD τ).loc main_arg15)) (m ((c : Thread nD τ).loc main_arg16)) (m ((c : Thread nD τ).loc main_arg17)) (m ((c : Thread nD τ).loc main_arg18))) cc := by
  show (V m c main_v11 : S1x2048.Idx → EReal) (ix2 (0 : Fin 1) cc) = _
  rw [V_v11, shapeCast_a_1a_apply]
  exact concat4_add (vec512 (m ((c : Thread nD τ).loc main_arg4))) (vec512 (m ((c : Thread nD τ).loc main_arg6))) (vec512 (m ((c : Thread nD τ).loc main_arg8))) (vec512 (m ((c : Thread nD τ).loc main_arg10))) (vec512 (m ((c : Thread nD τ).loc main_arg15))) (vec512 (m ((c : Thread nD τ).loc main_arg16))) (vec512 (m ((c : Thread nD τ).loc main_arg17))) (vec512 (m ((c : Thread nD τ).loc main_arg18))) concatenates_S512_S512_S512_S512_S2048_d0 cc

/-- The hidden-state array after the run, as a function of the nineteen arguments. -/
theorem hidG_eq (c : Dev nD) : hidG m c = fun i => hidAt (R := 16384) (m ((c : Thread nD τ).loc main_arg0)) (m ((c : Thread nD τ).loc main_arg1)) (m ((c : Thread nD τ).loc main_arg2)) (Cert.ReferenceIdeal.Read.val_main_v4 (F := Ideal) (m ((c : Thread nD τ).loc main_arg3)) (m ((c : Thread nD τ).loc main_arg5)) (m ((c : Thread nD τ).loc main_arg7)) (m ((c : Thread nD τ).loc main_arg9))) (Cert.ReferenceIdeal.Read.val_main_v6 (F := Ideal) (m ((c : Thread nD τ).loc main_arg11)) (m ((c : Thread nD τ).loc main_arg12)) (m ((c : Thread nD τ).loc main_arg13)) (m ((c : Thread nD τ).loc main_arg14))) (Cert.ReferenceIdeal.CellRef.bsum (m ((c : Thread nD τ).loc main_arg4)) (m ((c : Thread nD τ).loc main_arg6)) (m ((c : Thread nD τ).loc main_arg8)) (m ((c : Thread nD τ).loc main_arg10)) (m ((c : Thread nD τ).loc main_arg15)) (m ((c : Thread nD τ).loc main_arg16)) (m ((c : Thread nD τ).loc main_arg17)) (m ((c : Thread nD τ).loc main_arg18))) (i 0) (i 1) := by
  have hb : rowOf (V m c main_v11) = (Cert.ReferenceIdeal.CellRef.bsum (m ((c : Thread nD τ).loc main_arg4)) (m ((c : Thread nD τ).loc main_arg6)) (m ((c : Thread nD τ).loc main_arg8)) (m ((c : Thread nD τ).loc main_arg10)) (m ((c : Thread nD τ).loc main_arg15)) (m ((c : Thread nD τ).loc main_arg16)) (m ((c : Thread nD τ).loc main_arg17)) (m ((c : Thread nD τ).loc main_arg18))) := funext fun cc => V_v11_row m c cc
  unfold hidG
  rw [hb, V_main_arg0 m c, V_main_arg1 m c, V_main_arg2 m c, V_v8 m c, V_v10 m c]

/-- The cell-state array after the run, as a function of the nineteen arguments. -/
theorem cellG_eq (c : Dev nD) : cellG m c = fun i => cellAt (R := 16384) (m ((c : Thread nD τ).loc main_arg0)) (m ((c : Thread nD τ).loc main_arg1)) (m ((c : Thread nD τ).loc main_arg2)) (Cert.ReferenceIdeal.Read.val_main_v4 (F := Ideal) (m ((c : Thread nD τ).loc main_arg3)) (m ((c : Thread nD τ).loc main_arg5)) (m ((c : Thread nD τ).loc main_arg7)) (m ((c : Thread nD τ).loc main_arg9))) (Cert.ReferenceIdeal.Read.val_main_v6 (F := Ideal) (m ((c : Thread nD τ).loc main_arg11)) (m ((c : Thread nD τ).loc main_arg12)) (m ((c : Thread nD τ).loc main_arg13)) (m ((c : Thread nD τ).loc main_arg14))) (Cert.ReferenceIdeal.CellRef.bsum (m ((c : Thread nD τ).loc main_arg4)) (m ((c : Thread nD τ).loc main_arg6)) (m ((c : Thread nD τ).loc main_arg8)) (m ((c : Thread nD τ).loc main_arg10)) (m ((c : Thread nD τ).loc main_arg15)) (m ((c : Thread nD τ).loc main_arg16)) (m ((c : Thread nD τ).loc main_arg17)) (m ((c : Thread nD τ).loc main_arg18))) (i 0) (i 1) := by
  have hb : rowOf (V m c main_v11) = (Cert.ReferenceIdeal.CellRef.bsum (m ((c : Thread nD τ).loc main_arg4)) (m ((c : Thread nD τ).loc main_arg6)) (m ((c : Thread nD τ).loc main_arg8)) (m ((c : Thread nD τ).loc main_arg10)) (m ((c : Thread nD τ).loc main_arg15)) (m ((c : Thread nD τ).loc main_arg16)) (m ((c : Thread nD τ).loc main_arg17)) (m ((c : Thread nD τ).loc main_arg18))) := funext fun cc => V_v11_row m c cc
  unfold cellG
  rw [hb, V_main_arg0 m c, V_main_arg1 m c, V_main_arg2 m c, V_v8 m c, V_v10 m c]

/-! ## The run, with the results named -/

/-- Every weakly fair execution of the program terminates with the first result array at the hidden-state formula,
    the second at the cell-state formula, and the nineteen arguments as launched. -/
theorem run : θ_run defs (onTc (τ := τ) (main (F := Ideal))) ⟨m, fun _ => 0, ρ⟩ fun r => ∀ c : Dev nD,
      r.2.mem ((c : Thread nD τ).loc main_v12_0) = hidG m c
      ∧ r.2.mem ((c : Thread nD τ).loc main_v12_1) = cellG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.KernelIdeal.CellValue

end
-- ==== Proof.lean ====
/-
  An LSTM cell, fused: the kernel against its plain reference, equal on the extended reals.

  Both programs stack the four gate matrices of the input projection and of the recurrent projection, multiply the
  16384 rows of u and h by the transposed stacks, add the biases, and form the input, forget and output gates
  (logistic), the candidate (tanh), the new cell state f c + i g and the new hidden state o tanh (f c + i g).
  The kernel does it 1024 rows at a time, one 512-column gate quarter after another, with the two bias vectors of
  each gate added beforehand; the reference on whole arrays, adding one long bias vector and then the other, and
  spelling the logistic function as 1 / (1 + exp (-z)).

  What is proved, module by module: the frame of the kernel at the word level and on the extended reals
  (CellFrameBits, CellFrameIdeal: every execution ends, faults nowhere, leaves the arguments alone); each stored block
  read at an index is the cell formula over the blocks read (CellBlock), so each result array ends at the formula
  over the whole arrays (CellArrays); the host prefix leaves the reference's own transposed stacks and the sum of
  its two long bias vectors in the resident buffers (CellHost, CellBias); the reference's results are the same
  formula (CellRef). The one law joining the two sides is associativity of addition on the extended reals, which
  needs no finiteness: the precondition is never opened. The idealization rewrote nothing, so its conjunct is True.
-/
import proofs.«143322_j6150393167883_2_alg».proof.Defs
import proofs.«143322_j6150393167883_2_alg».proof.Proof.Gen.Kernel
import proofs.«143322_j6150393167883_2_alg».proof.Proof.Gen.KernelIdeal
import proofs.«143322_j6150393167883_2_alg».proof.Proof.Gen.ReferenceIdeal
import proofs.«143322_j6150393167883_2_alg».proof.Proof.Gen.Pre_finite_inputs
import proofs.«143322_j6150393167883_2_alg».proof.Proof.CellFrameBits
import proofs.«143322_j6150393167883_2_alg».proof.Proof.CellHost
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Cell.frame m ρ

/-- So does the kernel read on the extended reals. -/
theorem frame_kernelIdeal : Cert.frame_KernelIdeal := fun m ρ _ => Cert.KernelIdeal.Cell.frame m ρ

/-- The reference is host operations only: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

set_option maxHeartbeats 1600000 in
/-- From memories that agree on the nineteen arguments both programs end with the hidden-state formula in the
    first result and the cell-state formula in the second, the formulas over the same arguments. -/
theorem algebraic : Cert.algebraic_KernelIdeal_ReferenceIdeal := by
  intro m ρ m' ρ' _ hagree
  refine ⟨fun c => Cert.KernelIdeal.CellValue.hidG m c, fun c => Cert.KernelIdeal.CellValue.cellG m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    show Cert.ReferenceIdeal.Value.res_main_v42 m' c = Cert.KernelIdeal.CellValue.hidG m c
    rw [Cert.KernelIdeal.CellValue.hidG_eq, Cert.ReferenceIdeal.Read.val_main_v42_eq, Cert.ReferenceIdeal.CellRef.hid_eq,
      a0, a1, a2, a3, a4, a5, a6, a7, a8, a9, a10, a11, a12, a13, a14, a15, a16, a17, a18]
  · obtain ⟨a0, a1, a2, a3, a4, a5, a6, a7, a8, a9, a10, a11, a12, a13, a14, a15, a16, a17, a18⟩ := hagree c
    show Cert.ReferenceIdeal.Value.res_main_v40 m' c = Cert.KernelIdeal.CellValue.cellG m c
    rw [Cert.KernelIdeal.CellValue.cellG_eq, Cert.ReferenceIdeal.Read.val_main_v40_eq, Cert.ReferenceIdeal.CellRef.cell_eq,
      a0, a1, a2, a3, a4, a5, a6, a7, a8, a9, a10, a11, a12, a13, a14, a15, a16, a17, a18]

theorem claim : Cert.Claim := by
  refine ⟨Cert.Kernel.Gen.facts, Cert.KernelIdeal.Gen.facts, Cert.ReferenceIdeal.Gen.facts, Cert.Pre_finite_inputs.Gen.facts, ?_, ?_, ?_, ?_, ?_⟩
  · exact frame_kernel
  · exact frame_kernelIdeal
  · exact frame_referenceIdeal
  · exact trivial
  · exact algebraic

end Cert.Proof

end
